-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x4096 .f32
  ∧ IdealRules.sign_bit.Statement Cert.KernelIdeal.S128x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S11008x4096 : Shape := ⟨2, ![11008, 4096]⟩
abbrev S_ : Shape := ⟨0, ![]⟩

class Facts : Prop where
  bcast_S_S11008x4096 : S_.BroadcastsInDim S11008x4096 (![] : Fin 0 → Fin S11008x4096.rank)
  reducesTo_S11008x4096_S_d0_1 : S11008x4096.ReducesTo [0, 1] S_
  h_S_ : 0 < S_.numel

variable [Facts]

def fn {F : FTy → Type} [FloatOps F] (main_arg0 : FVec F S11008x4096 .f32) (main_arg1 : IVec S11008x4096 1) : IVec S_ 1 :=
  let main_v0 : FVec F S11008x4096 .f32 := Host.absf main_arg0
  let main_cst : FVec F S_ .f32 := constant S_ .f32 0x7F800000#32
  let main_v1 : FVec F S11008x4096 .f32 := broadcastInDim S11008x4096 ![] bcast_S_S11008x4096 main_cst
  let main_v2 : IVec S11008x4096 1 := cmpf .olt main_v0 main_v1
  let main_c : IVec S_ 1 := constantI S_ 1 1#1
  let main_v3 : IVec S_ 1 := (fun x v => Host.reduce IntOp.andi x v reducesTo_S11008x4096_S_d0_1 h_S_) main_v2 main_c
  main_v3
-- ==== Kernel.lean ====
abbrev S11008x4096 : Shape := ⟨2, ![11008, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S11008x4096, .f32⟩
  | .hbm, ⟨1, _⟩ => ⟨S11008x4096, .i1⟩
  | .hbm, ⟨2, _⟩ => ⟨S11008x4096, .i32⟩
  | .hbm, ⟨3, _⟩ => ⟨S11008x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .i32⟩
  | .local _ .vmem, ⟨3, _⟩ => ⟨S128x4096, .i32⟩
  | .local _ .vmem, ⟨4, _⟩ => ⟨S128x4096, .f32⟩
  | .local _ .vmem, ⟨5, _⟩ => ⟨S128x4096, .f32⟩
  | _, _ => ⟨S11008x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  broadcasts_S128x1_S128x4096 : S128x1.Broadcasts S128x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S11008x4096.size a
  hwx0_0 : ∀ i : grid0.Coords, EltTy.bits .f32 = 32 ∨ (Rect.block (s := S11008x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .i32 = 32 ∨ (Rect.block (s := S11008x4096) S128x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .f32 = 32 ∨ (Rect.block (s := S11008x4096) S128x4096.size (cc0_transform_2 i) (hinb0_2 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S11008x4096 : Shape := ⟨2, ![11008, 4096]⟩
abbrev S_ : Shape := ⟨0, ![]⟩
abbrev S11008 : Shape := ⟨1, ![11008]⟩
abbrev S11008x1 : Shape := ⟨2, ![11008, 1]⟩

abbrev nBuf : Space → Nat
  | .hbm => 73
  | .vmem => 0
  | .smem => 0
  | _ => 0

abbrev bufTy : (tb : Table) → Fin (tcTables nBuf tb) → BufTy
  | .hbm, ⟨0, _⟩ => ⟨S11008x4096, .f32⟩
  | .hbm, ⟨1, _⟩ => ⟨S11008x4096, .i1⟩
  | .hbm, ⟨2, _⟩ => ⟨S11008x4096, .f32⟩
  | .hbm, ⟨3, _⟩ => ⟨S_, .f32⟩
  | .hbm, ⟨4, _⟩ => ⟨S11008, .f32⟩
  | .hbm, ⟨5, _⟩ => ⟨S11008x1, .f32⟩
  | .hbm, ⟨6, _⟩ => ⟨S_, .f32⟩
  | .hbm, ⟨7, _⟩ => ⟨S11008x1, .f32⟩
  | .hbm, ⟨8, _⟩ => ⟨S11008x1, .f32⟩
  | .hbm, ⟨9, _⟩ => ⟨S_, .f32⟩
  | .hbm, ⟨10, _⟩ => ⟨S11008x1, .f32⟩
  | .hbm, ⟨11, _⟩ => ⟨S11008x1, .i1⟩
  | .hbm, ⟨12, _⟩ => ⟨S11008x4096, .f32⟩
  | .hbm, ⟨13, _⟩ => ⟨S_, .f32⟩
  | .hbm, ⟨14, _⟩ => ⟨S11008x4096, .f32⟩
  | .hbm, ⟨15, _⟩ => ⟨S11008x4096, .f32⟩
  | .hbm, ⟨16, _⟩ => ⟨S11008x4096, .f32⟩
  | .hbm, ⟨17, _⟩ => ⟨S_, .f32⟩
  | .hbm, ⟨18, _⟩ => ⟨S11008, .f32⟩
  | .hbm, ⟨19, _⟩ => ⟨S11008x1, .f32⟩
  | .hbm, ⟨20, _⟩ => ⟨S11008x1, .f32⟩
  | .hbm, ⟨21, _⟩ => ⟨S_, .f32⟩
  | .hbm, ⟨22, _⟩ => ⟨S_, .f32⟩
  | .hbm, ⟨23, _⟩ => ⟨S11008x1, .f32⟩
  | .hbm, ⟨24, _⟩ => ⟨S11008x1, .f32⟩
  | .hbm, ⟨25, _⟩ => ⟨S11008x4096, .f32⟩
  | .hbm, ⟨26, _⟩ => ⟨S11008x4096, .f32⟩
  | .hbm, ⟨27, _⟩ => ⟨S11008x4096, .f32⟩
  | .hbm, ⟨28, _⟩ => ⟨S11008x4096, .f32⟩
  | .hbm, ⟨29, _⟩ => ⟨S_, .f32⟩
  | .hbm, ⟨30, _⟩ => ⟨S11008, .f32⟩
  | .hbm, ⟨31, _⟩ => ⟨S11008x1, .f32⟩
  | .hbm, ⟨32, _⟩ => ⟨S11008x1, .f32⟩
  | .hbm, ⟨33, _⟩ => ⟨S_, .f32⟩
  | .hbm, ⟨34, _⟩ => ⟨S_, .f32⟩
  | .hbm, ⟨35, _⟩ => ⟨S11008x1, .f32⟩
  | .hbm, ⟨36, _⟩ => ⟨S11008x1, .f32⟩
  | .hbm, ⟨37, _⟩ => ⟨S11008x4096, .f32⟩
  | .hbm, ⟨38, _⟩ => ⟨S11008x4096, .f32⟩
  | .hbm, ⟨39, _⟩ => ⟨S11008x4096, .f32⟩
  | .hbm, ⟨40, _⟩ => ⟨S11008x4096, .f32⟩
  | .hbm, ⟨41, _⟩ => ⟨S11008x4096, .f32⟩
  | .hbm, ⟨42, _⟩ => ⟨S11008x4096, .f32⟩
  | .hbm, ⟨43, _⟩ => ⟨S11008x4096, .f32⟩
  | .hbm, ⟨44, _⟩ => ⟨S11008x4096, .f32⟩
  | .hbm, ⟨45, _⟩ => ⟨S11008x4096, .f32⟩
  | .hbm, ⟨46, _⟩ => ⟨S_, .f32⟩
  | .hbm, ⟨47, _⟩ => ⟨S11008, .f32⟩
  | .hbm, ⟨48, _⟩ => ⟨S11008x1, .f32⟩
  | .hbm, ⟨49, _⟩ => ⟨S11008x1, .f32⟩
  | .hbm, ⟨50, _⟩ => ⟨S_, .f32⟩
  | .hbm, ⟨51, _⟩ => ⟨S_, .f32⟩
  | .hbm, ⟨52, _⟩ => ⟨S11008x1, .f32⟩
  | .hbm, ⟨53, _⟩ => ⟨S11008x1, .f32⟩
  | .hbm, ⟨54, _⟩ => ⟨S11008x4096, .f32⟩
  | .hbm, ⟨55, _⟩ => ⟨S11008x4096, .f32⟩
  | .hbm, ⟨56, _⟩ => ⟨S11008x4096, .f32⟩
  | .hbm, ⟨57, _⟩ => ⟨S11008x4096, .f32⟩
  | .hbm, ⟨58, _⟩ => ⟨S_, .f32⟩
  | .hbm, ⟨59, _⟩ => ⟨S11008, .f32⟩
  | .hbm, ⟨60, _⟩ => ⟨S11008x1, .f32⟩
  | .hbm, ⟨61, _⟩ => ⟨S11008x1, .f32⟩
  | .hbm, ⟨62, _⟩ => ⟨S_, .f32⟩
  | .hbm, ⟨63, _⟩ => ⟨S_, .f32⟩
  | .hbm, ⟨64, _⟩ => ⟨S11008x1, .f32⟩
  | .hbm, ⟨65, _⟩ => ⟨S11008x1, .f32⟩
  | .hbm, ⟨66, _⟩ => ⟨S11008x4096, .f32⟩
  | .hbm, ⟨67, _⟩ => ⟨S11008x4096, .f32⟩
  | .hbm, ⟨68, _⟩ => ⟨S11008x4096, .f32⟩
  | .hbm, ⟨69, _⟩ => ⟨S11008x4096, .f32⟩
  | .hbm, ⟨70, _⟩ => ⟨S11008x4096, .f32⟩
  | .hbm, ⟨71, _⟩ => ⟨S11008x4096, .f32⟩
  | .hbm, ⟨72, _⟩ => ⟨S11008x4096, .f32⟩
  | _, _ => ⟨S11008x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_call2_v0 : Ref sig .tc := ⟨.hbm, 51, rfl⟩
abbrev main_call2_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_call3_v0 : Ref sig .tc := ⟨.hbm, 63, rfl⟩
abbrev main_call3_v1 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  reducesTo_S11008x4096_S11008_d1 : S11008x4096.ReducesTo [1] S11008
  h_S_ : 0 < S_.numel
  bcast_S11008_S11008x1_0 : S11008.BroadcastsInDim S11008x1 (![0] : Fin 1 → Fin S11008x1.rank)
  bcast_S_S11008x1 : S_.BroadcastsInDim S11008x1 (![] : Fin 0 → Fin S11008x1.rank)
  bcast_S_S11008x4096 : S_.BroadcastsInDim S11008x4096 (![] : Fin 0 → Fin S11008x4096.rank)
  bcast_S11008x1_S11008x4096_0_1 : S11008x1.BroadcastsInDim S11008x4096 (![0, 1] : Fin 2 → Fin S11008x4096.rank)

variable [Facts₀]

class Facts : Prop extends Facts₀ where

variable [Facts]
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.RowSpec.lean ====
/-
  One row of the masked two-step residual binarisation, on the extended reals.

  A row is a finite family of entries `x k` with a mask `m k` that is `0` or `1`. Write `n = ∑ m` for the number of kept
  entries. The masked mean of a family `v` is `(∑ v) / max n 1` when `n > 0` and `0` otherwise. One STEP takes a running
  approximation `s` and a residual `r`, centres the residual on its masked mean `μ` inside the mask, `c = (r - μ) · m`,
  takes the masked mean `σ` of `|c|`, and adds `sign c · σ + μ` to `s` inside the mask: `s + (sign c · σ + μ) · m`.
  Two steps are taken, from `s = 0`, the residual being what is left of `x · m`.

  The two programs differ in two places only. One takes the residual as `x · m - s`, the other as `(x · m - s) · m`; these
  agree because `m` is `0` or `1` and `s` vanishes wherever `m` does (`masked_residual`). One computes the sign by two
  selections (`|c| > 0 ? (c < 0 ? -1 : 1) : c`), the other by the sign function; these agree on every extended real
  (`signSel_eq`). No finiteness is used: on the extended reals `a · 0 = 0` for every `a`, infinite or not.
-/
import Idealize.ShloMosaic.PureOps.Ideal.Laws
import Idealize.ShloMosaic.Lib.ValueIdx

noncomputable section

open scoped BigOperators

namespace Cert.MaskedRows

open Idealize.ShloMosaic

variable {ι : Type} [Fintype ι]

/-- The three float words the programs spell: `0.0`, `1.0`, `-1.0`. -/
abbrev zeroW : EReal := Ideal.ofBits .f32 0x00000000#32
abbrev oneW : EReal := Ideal.ofBits .f32 0x3F800000#32
abbrev negOneW : EReal := Ideal.ofBits .f32 0xBF800000#32

theorem zeroW_eq : zeroW = 0 := Ideal.ofBits_zero_f32
theorem oneW_eq : oneW = 1 := by
  simp [Ideal.ofBits, Ideal.ieee, -EReal.coe_mul]; norm_num
theorem negOneW_eq : negOneW = -1 := by
  simp [Ideal.ofBits, Ideal.ieee, -EReal.coe_mul]; norm_num

/-- The number of kept entries of a row. -/
def count (mr : ι → EReal) : EReal := ∑ k, mr k
/-- Whether the row keeps any entry, as the comparison's bit. -/
def hasAny (mr : ι → EReal) : BitVec 1 := Ideal.cmp .ogt (count mr) zeroW
/-- The divisor of the masked mean: the count, or one for an empty row. -/
def safeCount (mr : ι → EReal) : EReal := max (count mr) oneW
/-- The masked mean of `v`, the row's has-any bit and divisor given: the sum over the divisor, or zero for an empty row. -/
def meanWith (has : BitVec 1) (safe : EReal) (v : ι → EReal) : EReal :=
  Scalar.select has (Ideal.div (∑ k, v k) safe) zeroW
/-- The masked mean of `v` over the row with mask `mr`. -/
def mean (mr v : ι → EReal) : EReal := meanWith (hasAny mr) (safeCount mr) v
/-- The absolute value on the extended reals. -/
def absE (c : EReal) : EReal := max c (-c)
/-- The sign by two selections: `c` itself where `|c| > 0` fails (that is, at `0`), else `-1` below zero and `1` above. -/
def signSel (c : EReal) : EReal :=
  Scalar.select (Ideal.cmp .ogt (absE c) zeroW) (Scalar.select (Ideal.cmp .olt c zeroW) negOneW oneW) c

/-- One step: the running approximation `s` plus, inside the mask, the sign of the centred residual times its masked mean
    absolute value, plus the residual's masked mean. -/
def stepWith (sg : EReal → EReal) (has : BitVec 1) (safe : EReal) (mr res s : ι → EReal) : ι → EReal := fun q =>
  s q + (sg ((res q - meanWith has safe res) * mr q)
      * meanWith has safe (fun k => absE ((res k - meanWith has safe res) * mr k)) + meanWith has safe res) * mr q
/-- One step over the row with mask `mr`: the has-any bit and the divisor are the mask's. -/
def step (sg : EReal → EReal) (mr res s : ι → EReal) : ι → EReal := stepWith sg (hasAny mr) (safeCount mr) mr res s

/-- Two steps with the residual `x · m - s` and the sign by selections. -/
def outSel (xr mr : ι → EReal) : ι → EReal :=
  step signSel mr (fun k => xr k * mr k - step signSel mr (fun k => xr k * mr k - zeroW) (fun _ => zeroW) k)
    (step signSel mr (fun k => xr k * mr k - zeroW) (fun _ => zeroW))

/-- Two steps with the residual `(x · m - s) · m` and the sign function. -/
def outSign (xr mr : ι → EReal) : ι → EReal :=
  step Ideal.sign mr (fun k => (xr k * mr k - step Ideal.sign mr (fun k => (xr k * mr k - zeroW) * mr k) (fun _ => zeroW) k) * mr k)
    (step Ideal.sign mr (fun k => (xr k * mr k - zeroW) * mr k) (fun _ => zeroW))

/-- The sign by two selections is the sign function, on every extended real. -/
theorem signSel_eq (c : EReal) : signSel c = Ideal.sign c := by
  unfold signSel absE
  rw [zeroW_eq, oneW_eq, negOneW_eq]
  induction c using EReal.rec with
  | bot => simp [Ideal.cmp, Scalar.select]
  | top => simp [Ideal.cmp, Scalar.select]
  | coe r =>
    rcases lt_trichotomy r 0 with h | h | h
    · have hr : ((r : ℝ) : EReal) < 0 := EReal.coe_neg'.mpr h
      have hn : (0 : EReal) < -((r : ℝ) : EReal) := by
        rw [← EReal.coe_neg]; exact EReal.coe_pos.mpr (neg_pos.mpr h)
      have hm : (0 : EReal) < max ((r : ℝ) : EReal) (-((r : ℝ) : EReal)) := lt_max_of_lt_right hn
      simp [Ideal.cmp, Scalar.select, hr, hm, sign_neg h]
    · subst h
      have h0 : Ideal.sign (0 : EReal) = 0 := by
        show Ideal.sign ((0 : ℝ) : EReal) = 0
        rw [Ideal.sign_coe]; simp
      simp [Ideal.cmp, Scalar.select, h0]
    · have hr : (0 : EReal) < ((r : ℝ) : EReal) := EReal.coe_pos.mpr h
      have hm : (0 : EReal) < max ((r : ℝ) : EReal) (-((r : ℝ) : EReal)) := lt_max_of_lt_left hr
      simp [Ideal.cmp, Scalar.select, hr, hm, not_lt.mpr hr.le, sign_pos h]

/-- Masking a residual that is already masked changes nothing: for `m` zero or one and `s` zero where `m` is. -/
theorem masked_residual (x s m : EReal) (hm : m = 0 ∨ m = 1) (hs : m = 0 → s = 0) : (x * m - s) * m = x * m - s := by
  rcases hm with h | h
  · rw [hs h, h]; simp
  · rw [h]; simp

/-- Outside the mask a step leaves the running approximation as it was. -/
theorem step_apply_of_mask_zero (sg : EReal → EReal) (mr res s : ι → EReal) (q : ι) (h : mr q = 0) :
    step sg mr res s q = s q := by
  unfold step stepWith; rw [h]; simp

/-- The two rows are one: the selections' sign is the sign function, and each residual is already masked. -/
theorem outSel_eq_outSign (xr mr : ι → EReal) (hm : ∀ k, mr k = 0 ∨ mr k = 1) : outSel xr mr = outSign xr mr := by
  have hsg : signSel = Ideal.sign := funext signSel_eq
  have h1 : (fun k => xr k * mr k - zeroW) = fun k => (xr k * mr k - zeroW) * mr k :=
    funext fun k => (masked_residual (xr k) zeroW (mr k) (hm k) (fun _ => zeroW_eq)).symm
  unfold outSel outSign
  rw [hsg, ← h1]
  have h2 : (fun k => xr k * mr k - step Ideal.sign mr (fun k => xr k * mr k - zeroW) (fun _ => zeroW) k)
      = fun k => (xr k * mr k - step Ideal.sign mr (fun k => xr k * mr k - zeroW) (fun _ => zeroW) k) * mr k :=
    funext fun k => (masked_residual (xr k) _ (mr k) (hm k) (fun h => by
      rw [step_apply_of_mask_zero _ _ _ _ _ h]; exact zeroW_eq)).symm
  rw [← h2]

end Cert.MaskedRows

end
-- ==== Proof.KernelRow.lean ====
/-
  The kernel's block, entry by entry, as the row specification.

  The body works on a block of 128 rows and 4096 lanes. Every reduction is a lane sum kept as a column (a reduction
  `[128, 4096] → [128]`, a cast to `[128, 1]`) that the row's scalars (the count's maximum with one, the comparison with
  zero, the quotient, the selection) are computed from, and is then broadcast back along the lanes. So the entry at
  `(p, q)` of every stage depends on row `p` of the loaded blocks only: `meanVec_apply` reads one such masked mean at
  `(p, q)`, `pay1_apply` reads a whole step, and since the first step is the second one's term at other arguments
  (`pay7_eq`) the stored value is the two-step row function `outSel` of row `p` (`out_apply`).
-/
import proofs.«145574_j60430189855367_2_alg».proof.Proof.Gen.KernelIdeal.Skeleton
import proofs.«145574_j60430189855367_2_alg».proof.Proof.LibKeepdims
import proofs.«145574_j60430189855367_2_alg».proof.Proof.RowSpec

noncomputable section

open scoped BigOperators

namespace Cert.KernelIdeal.RowValue

open Cert.KernelIdeal Cert.KernelIdeal.Gen Idealize.ShloMosaic Idealize.ShloMosaic.ValueIdx Cert.MaskedRows

/-- A masked mean as the body computes it: the lane sum of `src` kept as a column, divided by the column `v8`, selected
    against zero by the column `v10`, broadcast along the lanes. -/
def meanVec (src : FVec Ideal S128x4096 .f32) (v8 : FVec Ideal S128x1 .f32) (v10 : IVec S128x1 1) : FVec Ideal S128x4096 .f32 :=
  broadcastTo S128x4096 (select v10 (divf (shapeCast S128x1 (multiReduction .add [1] S128 src 0x00000000#32
      reduces_S128x4096_S128 (.inl rfl) rfl) shapeCasts_S128_S128x1) v8)
    (broadcast S128x1 (FloatOps.ofBits (F := Ideal) .f32 0x00000000#32))) broadcasts_S128x1_S128x4096

/-- Read at `(p, q)` it is the masked mean of row `p` of `src`, whatever `q`. -/
theorem meanVec_apply (src : FVec Ideal S128x4096 .f32) (v8 : FVec Ideal S128x1 .f32) (v10 : IVec S128x1 1)
    (p : Fin 128) (q : Fin 4096) :
    meanVec src v8 v10 (ix2 p q)
      = meanWith (v10 (ix2 p (0 : Fin 1))) (v8 (ix2 p (0 : Fin 1))) (fun k => src (ix2 p k)) := by
  unfold meanVec
  refine (broadcastTo_a1_ab_apply _ broadcasts_S128x1_S128x4096 p q).trans ?_
  refine congrArg (fun t => Scalar.select (v10 (ix2 p (0 : Fin 1))) (Ideal.div t (v8 (ix2 p (0 : Fin 1)))) zeroW) ?_
  exact (shapeCast_a_a1_apply _ shapeCasts_S128_S128x1 p 0).trans (multiReduction_add_rows_apply src _ _ _ _ p)

/-- The residual `v44` centred on its masked mean, inside the mask `v4`. -/
def cenVec (v4 : FVec Ideal S128x4096 .f32) (v8 : FVec Ideal S128x1 .f32) (v10 : IVec S128x1 1)
    (v44 : FVec Ideal S128x4096 .f32) : FVec Ideal S128x4096 .f32 :=
  mulf (subf v44 (meanVec v44 v8 v10)) v4

theorem cenVec_apply (v4 : FVec Ideal S128x4096 .f32) (v8 : FVec Ideal S128x1 .f32) (v10 : IVec S128x1 1)
    (v44 : FVec Ideal S128x4096 .f32) (p : Fin 128) (q : Fin 4096) :
    cenVec v4 v8 v10 v44 (ix2 p q)
      = (v44 (ix2 p q) - meanWith (v10 (ix2 p (0 : Fin 1))) (v8 (ix2 p (0 : Fin 1))) (fun k => v44 (ix2 p k))) * v4 (ix2 p q) := by
  show (v44 (ix2 p q) - meanVec v44 v8 v10 (ix2 p q)) * v4 (ix2 p q) = _
  rw [meanVec_apply]

/-- One step of the body, over the two named vectors: the printed sequence, with its repeated sub-terms named. -/
theorem pay1_eq (v4 : FVec Ideal S128x4096 .f32) (v8 : FVec Ideal S128x1 .f32) (v10 : IVec S128x1 1)
    (v43 v44 : FVec Ideal S128x4096 .f32) :
    k0_pay1 v4 v8 v10 v43 v44
      = addf v43 (mulf (addf (mulf
          (select (cmpf .ogt (absf (cenVec v4 v8 v10 v44)) (broadcast S128x4096 (FloatOps.ofBits (F := Ideal) .f32 0x00000000#32)))
            (select (cmpf .olt (cenVec v4 v8 v10 v44) (constant S128x4096 .f32 0x00000000#32))
              (constant S128x4096 .f32 0xBF800000#32) (constant S128x4096 .f32 0x3F800000#32))
            (cenVec v4 v8 v10 v44))
          (meanVec (absf (cenVec v4 v8 v10 v44)) v8 v10)) (meanVec v44 v8 v10)) v4) := rfl

/-- One step of the body at `(p, q)`: the step of the row specification on row `p` of its five operands. -/
theorem pay1_apply (v4 : FVec Ideal S128x4096 .f32) (v8 : FVec Ideal S128x1 .f32) (v10 : IVec S128x1 1)
    (v43 v44 : FVec Ideal S128x4096 .f32) (p : Fin 128) (q : Fin 4096) :
    k0_pay1 v4 v8 v10 v43 v44 (ix2 p q)
      = stepWith signSel (v10 (ix2 p (0 : Fin 1))) (v8 (ix2 p (0 : Fin 1))) (fun k => v4 (ix2 p k)) (fun k => v44 (ix2 p k))
          (fun k => v43 (ix2 p k)) q := by
  have habs : (fun k => (absf (cenVec v4 v8 v10 v44)) (ix2 p k))
      = fun k => absE ((v44 (ix2 p k) - meanWith (v10 (ix2 p (0 : Fin 1))) (v8 (ix2 p (0 : Fin 1))) (fun k => v44 (ix2 p k))) * v4 (ix2 p k)) :=
    funext fun k => by
      show absE (cenVec v4 v8 v10 v44 (ix2 p k)) = _
      rw [cenVec_apply]
  rw [pay1_eq]
  show v43 (ix2 p q) + (signSel (cenVec v4 v8 v10 v44 (ix2 p q)) * meanVec (absf (cenVec v4 v8 v10 v44)) v8 v10 (ix2 p q)
      + meanVec v44 v8 v10 (ix2 p q)) * v4 (ix2 p q) = _
  rw [meanVec_apply, meanVec_apply, cenVec_apply, habs]
  rfl

/-- The first step is the second step's term at other arguments: a zero running approximation, the residual `x · m - 0`. -/
theorem pay7_eq (v0 : Vec Ideal S128x4096 .f32) (v1 : Vec Ideal S128x4096 .i32) :
    k0_pay7 v0 v1 = k0_pay1 (k0_pay2 v1) (k0_pay4 v1) (k0_pay5 v1)
      (broadcast S128x4096 (FloatOps.ofBits (F := Ideal) .f32 0x00000000#32))
      (subf (k0_pay6 v0 v1) (broadcast S128x4096 (FloatOps.ofBits (F := Ideal) .f32 0x00000000#32))) := rfl

/-- The count column at row `p`: the sum of the mask's numbers over the row. -/
theorem count_apply (v1 : Vec Ideal S128x4096 .i32) (p : Fin 128) :
    k0_pay3 v1 (ix2 p (0 : Fin 1)) = MaskedRows.count (fun k => k0_pay2 v1 (ix2 p k)) := by
  unfold k0_pay3 MaskedRows.count
  exact (shapeCast_a_a1_apply _ shapeCasts_S128_S128x1 p 0).trans (multiReduction_add_rows_apply (k0_pay2 v1) _ _ _ _ p)

theorem hasAny_apply (v1 : Vec Ideal S128x4096 .i32) (p : Fin 128) :
    k0_pay5 v1 (ix2 p (0 : Fin 1)) = hasAny (fun k => k0_pay2 v1 (ix2 p k)) := by
  show Ideal.cmp .ogt (k0_pay3 v1 (ix2 p (0 : Fin 1))) zeroW = _
  rw [count_apply]; rfl

theorem safeCount_apply (v1 : Vec Ideal S128x4096 .i32) (p : Fin 128) :
    k0_pay4 v1 (ix2 p (0 : Fin 1)) = safeCount (fun k => k0_pay2 v1 (ix2 p k)) := by
  show max (k0_pay3 v1 (ix2 p (0 : Fin 1))) oneW = _
  rw [count_apply]; rfl

/-- The first step at `(p, k)`. -/
theorem pay7_apply (v0 : Vec Ideal S128x4096 .f32) (v1 : Vec Ideal S128x4096 .i32) (p : Fin 128) (k : Fin 4096) :
    k0_pay7 v0 v1 (ix2 p k)
      = step signSel (fun k => k0_pay2 v1 (ix2 p k)) (fun k => v0 (ix2 p k) * k0_pay2 v1 (ix2 p k) - zeroW) (fun _ => zeroW) k := by
  rw [pay7_eq, pay1_apply, hasAny_apply, safeCount_apply]
  rfl

/-- THE STORED VALUE at `(p, q)`: the two-step row function, with the sign by selections and the residual `x · m - s`, of
    row `p` of the loaded block of `x` and of the numbers of the loaded block of mask words. -/
theorem out_apply (P0 : Vec Ideal S128x4096 .f32) (P1 : Vec Ideal S128x4096 .i32) (p : Fin 128) (q : Fin 4096) :
    k0_pay1 (k0_pay2 P1) (k0_pay4 P1) (k0_pay5 P1) (k0_pay7 P0 P1) (k0_pay8 P0 P1) (ix2 p q)
      = outSel (fun k => P0 (ix2 p k)) (fun k => k0_pay2 P1 (ix2 p k)) q := by
  have h7 : (fun k => k0_pay7 P0 P1 (ix2 p k))
      = step signSel (fun k => k0_pay2 P1 (ix2 p k)) (fun k => P0 (ix2 p k) * k0_pay2 P1 (ix2 p k) - zeroW) (fun _ => zeroW) :=
    funext fun k => pay7_apply P0 P1 p k
  have h8 : (fun k => k0_pay8 P0 P1 (ix2 p k))
      = fun k => P0 (ix2 p k) * k0_pay2 P1 (ix2 p k)
          - step signSel (fun k => k0_pay2 P1 (ix2 p k)) (fun k => P0 (ix2 p k) * k0_pay2 P1 (ix2 p k) - zeroW) (fun _ => zeroW) k :=
    funext fun k => by
      show P0 (ix2 p k) * k0_pay2 P1 (ix2 p k) - k0_pay7 P0 P1 (ix2 p k) = _
      rw [pay7_apply]
  rw [pay1_apply, hasAny_apply, safeCount_apply, h7, h8]
  rfl

end Cert.KernelIdeal.RowValue

end
-- ==== Proof.ArraySpec.lean ====
/-
  The result array as one function of the two argument arrays, index by index.

  The entry at `(r, q)` of the result is entry `q` of the two-step row function of row `r` of `x` and of the mask: nothing
  crosses rows. The mask arrives as one bit per entry; as a number it is `0` or `1` (`maskOfBit_zero_or_one`). One program
  converts the bit directly; the other first widens it to a 32-bit word, tests the word against zero, widens the test's bit
  and converts that as a signed integer: the same number (`maskWord_eq`).
-/
import proofs.«145574_j60430189855367_2_alg».proof.Proof.RowSpec

noncomputable section

open scoped BigOperators

namespace Cert.MaskedRows

open Idealize.ShloMosaic Idealize.ShloMosaic.ValueIdx

/-- The mask bit as a number. -/
def maskOfBit (b : BitVec 1) : EReal := FloatOps.uitofp (F := Ideal) .f32 b

theorem bit_cases (b : BitVec 1) : b = 0#1 ∨ b = 1#1 := by
  revert b; decide

theorem maskOfBit_zero_or_one (b : BitVec 1) : maskOfBit b = 0 ∨ maskOfBit b = 1 := by
  rcases bit_cases b with rfl | rfl
  · left; show (((0#1 : BitVec 1).toNat : ℝ) : EReal) = 0; simp
  · right; show (((1#1 : BitVec 1).toNat : ℝ) : EReal) = 1; simp

/-- The bit widened to a word, tested against zero, the test widened and read as a signed integer: the bit's number. -/
theorem maskWord_eq (b : BitVec 1) :
    FloatOps.sitofp (F := Ideal) .f32 ((IntOp.cmpi .ne (b.setWidth 32) 0#32).setWidth 32) = maskOfBit b := by
  rcases bit_cases b with rfl | rfl
  · have h : (IntOp.cmpi .ne ((0#1 : BitVec 1).setWidth 32) 0#32).setWidth 32 = 0#32 := by decide
    rw [h]
    show (((0#32 : BitVec 32).toInt : ℝ) : EReal) = (((0#1 : BitVec 1).toNat : ℝ) : EReal)
    simp
  · have h : (IntOp.cmpi .ne ((1#1 : BitVec 1).setWidth 32) 0#32).setWidth 32 = 1#32 := by decide
    rw [h]
    show (((1#32 : BitVec 32).toInt : ℝ) : EReal) = (((1#1 : BitVec 1).toNat : ℝ) : EReal)
    have h1 : (1#32 : BitVec 32).toInt = 1 := by decide
    rw [h1]; simp

/-- The shape of the three arrays. -/
abbrev SArr : Shape := ⟨2, ![11008, 4096]⟩

/-- Row `r` of `x` and of the mask's numbers. -/
def xRow (x : SArr.Idx → EReal) (r : Fin 11008) : Fin 4096 → EReal := fun k => x (ix2 r k)
def mRow (mk : SArr.Idx → BitVec 1) (r : Fin 11008) : Fin 4096 → EReal := fun k => maskOfBit (mk (ix2 r k))

/-- THE SPECIFICATION: the result array, index by index. -/
def G (x : SArr.Idx → EReal) (mk : SArr.Idx → BitVec 1) : SArr.Idx → EReal := fun i =>
  outSign (xRow x (i 0 : Fin 11008)) (mRow mk (i 0 : Fin 11008)) (i 1 : Fin 4096)

theorem G_apply (x : SArr.Idx → EReal) (mk : SArr.Idx → BitVec 1) (r : Fin 11008) (q : Fin 4096) :
    G x mk (ix2 r q) = outSign (xRow x r) (mRow mk r) q := rfl

theorem mRow_zero_or_one (mk : SArr.Idx → BitVec 1) (r : Fin 11008) (k : Fin 4096) : mRow mk r k = 0 ∨ mRow mk r k = 1 :=
  maskOfBit_zero_or_one _

end Cert.MaskedRows

end
-- ==== Proof.KernelBlock.lean ====
/-
  One block of the kernel's result is the block of the specification.

  A grid point loads 128 whole rows of `x` and of the mask (widened to 32-bit words by the host before the call), starting
  at some row `r0`, and stores 128 whole rows of the result. Given just that — the loaded blocks read at `(p, k)` are the
  arrays at `(r0 + p, k)` — the stored value at `(p, q)` is the specification `G` at `(r0 + p, q)`: the body's row function
  of the loaded rows (the sign by selections, the residual `x · m - s`) is the specification's (the sign function, the
  residual `(x · m - s) · m`), because the mask's numbers are `0` or `1`.
-/
import proofs.«145574_j60430189855367_2_alg».proof.Proof.KernelRow
import proofs.«145574_j60430189855367_2_alg».proof.Proof.ArraySpec

noncomputable section

open scoped BigOperators

namespace Cert.KernelIdeal.RowValue

open Cert.KernelIdeal Cert.KernelIdeal.Gen Idealize.ShloMosaic Idealize.ShloMosaic.ValueIdx Cert.MaskedRows

theorem block_eq (x : SArr.Idx → EReal) (mk : SArr.Idx → BitVec 1)
    (P0 : Vec Ideal S128x4096 .f32) (P1 : Vec Ideal S128x4096 .i32) (r0 : Nat) (hr0 : r0 + 128 ≤ 11008)
    (h0 : ∀ (p : Fin 128) (k : Fin 4096), P0 (ix2 p k) = x (ix2 (⟨r0 + p.val, by have := p.isLt; omega⟩ : Fin 11008) k))
    (h1 : ∀ (p : Fin 128) (k : Fin 4096),
      P1 (ix2 p k) = (mk (ix2 (⟨r0 + p.val, by have := p.isLt; omega⟩ : Fin 11008) k)).setWidth 32)
    (p : Fin 128) (q : Fin 4096) :
    k0_pay1 (k0_pay2 P1) (k0_pay4 P1) (k0_pay5 P1) (k0_pay7 P0 P1) (k0_pay8 P0 P1) (ix2 p q)
      = G x mk (ix2 (⟨r0 + p.val, by have := p.isLt; omega⟩ : Fin 11008) q) := by
  have hx : (fun k => P0 (ix2 p k)) = xRow x ⟨r0 + p.val, by have := p.isLt; omega⟩ := funext fun k => h0 p k
  have hm : (fun k => k0_pay2 P1 (ix2 p k)) = mRow mk ⟨r0 + p.val, by have := p.isLt; omega⟩ := funext fun k => by
    show FloatOps.sitofp (F := Ideal) .f32 ((IntOp.cmpi .ne (P1 (ix2 p k)) 0#32).setWidth 32) = _
    rw [h1 p k]
    exact maskWord_eq _
  rw [out_apply, G_apply, hx, hm]
  exact congrFun (outSel_eq_outSign _ _ (mRow_zero_or_one mk _)) q

end Cert.KernelIdeal.RowValue

end
-- ==== Proof.KernelArray.lean ====
/-
  The kernel's result array is the specification.

  The grid has 86 points; point `t` loads and stores rows `128·t … 128·t + 127`, all 4096 columns (the index maps, decided
  over the grid: `idx_facts`). The mask the body loads is the argument widened to 32-bit words by the one host operation
  before the call (`V_words`). So what point `t` writes back is block `t` of the specification `G` (`flushed_eq`, by the
  per-block lemma), the 86 blocks cover the array (row `r` lies in block `r / 128`), and the array after the run is `G`
  of the two arguments (`final`, `run`).
-/
import proofs.«145574_j60430189855367_2_alg».proof.Proof.KernelBlocksP
import proofs.«145574_j60430189855367_2_alg».proof.Proof.KernelBlock
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.MaskedRows Cert.KernelIdeal.RowValue

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 86 grid points: every window's block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The array window 1 stages, as the region finds it: the mask argument widened to words by the host. -/
theorem V_words (c : Dev nD) :
    (V m c main_v0 : S11008x4096.Idx → BitVec 32) = extui 32 (m ((c : Thread nD τ).loc main_arg1)) natLt_1_32 := by
  dsimp only [Gen.V, Gen.hostOps0]; after_results

/-- WHAT POINT `t` WRITES BACK is block `t` of the specification of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [ValueP.flushed2]
  unfold out0_2
  rw [View.canon_unit_zero hz]
  simp only [View.ld_unit_zero (S := S128x4096) hz]
  obtain ⟨e00, e01, e10, e11, e20, e21⟩ := idx_facts t
  have ht : t.val < 86 := lt_of_lt_of_eq t.isLt N_0
  funext j
  obtain ⟨p, q, rfl⟩ : ∃ (p : Fin 128) (q : Fin 4096), j = ix2 p q := ⟨j 0, j 1, eq_ix2 j⟩
  show k0_pay1 (k0_pay2 (iblk m c 1 t)) (k0_pay4 (iblk m c 1 t)) (k0_pay5 (iblk m c 1 t)) (k0_pay7 (iblk m c 0 t) (iblk m c 1 t))
      (k0_pay8 (iblk m c 0 t) (iblk m c 1 t)) (ix2 p q)
    = G (m ((c : Thread nD τ).loc main_arg0)) (m ((c : Thread nD τ).loc main_arg1)) (((cfg0.win 2).blk t).view.emb (ix2 p q))
  refine (block_eq (m ((c : Thread nD τ).loc main_arg0)) (m ((c : Thread nD τ).loc main_arg1)) (iblk m c 0 t) (iblk m c 1 t)
    (t.val * 128) (by omega) (fun p k => ?_) (fun p k => ?_) p q).trans ?_
  · show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 128 + 1 * p.val = t.val * 128 + p.val; omega
    | ⟨1, _⟩ => show win0_0.index t (1 : Fin 2) * 4096 + 1 * k.val = k.val; omega
  · show V m c main_v0 (((cfg0.win 1).blk t).view.emb (ix2 p k)) = _
    rw [V_words]
    show (m ((c : Thread nD τ).loc main_arg1) (((cfg0.win 1).blk t).view.emb (ix2 p k))).setWidth 32 = _
    refine congrArg (fun i => (m ((c : Thread nD τ).loc main_arg1) i).setWidth 32) (funext fun a => Fin.ext ?_)
    match a with
    | ⟨0, _⟩ => show win0_1.index t (0 : Fin 2) * 128 + 1 * p.val = t.val * 128 + p.val; omega
    | ⟨1, _⟩ => show win0_1.index t (1 : Fin 2) * 4096 + 1 * k.val = k.val; omega
  · refine congrArg (G (m ((c : Thread nD τ).loc main_arg0)) (m ((c : Thread nD τ).loc main_arg1))) (funext fun a => Fin.ext ?_)
    match a with
    | ⟨0, _⟩ => show t.val * 128 + p.val = win0_2.index t (0 : Fin 2) * 128 + 1 * p.val; omega
    | ⟨1, _⟩ => show q.val = win0_2.index t (1 : Fin 2) * 4096 + 1 * q.val; omega

/-- An index of the array is in point `t`'s block iff each coordinate is in the block's range on its axis. -/
theorem mem_blk (t : Fin cfg0.N) (i : S11008x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v1).slice (win0_2.rect t)).set ↔ _
  rw [View.set_slice_whole, Rect.mem_set_unit]
  exact Iff.rfl

/-- Every index of the array is in some point's block: row `r` is in block `r / 128`. -/
theorem cover (i : S11008x4096.Idx) : ∃ t : Fin cfg0.N, (cfg0.win 2).flush t = true ∧ i ∈ ((cfg0.win 2).blk t).view.set := by
  have hi0 : (i 0).val < 11008 := (i 0).isLt
  have hi1 : (i 1).val < 4096 := (i 1).isLt
  have hN : cfg0.N = 86 := N_0
  let t : Fin cfg0.N := ⟨(i 0).val / 128, by rw [hN]; omega⟩
  obtain ⟨e00, e01, e10, e11, e20, e21⟩ := idx_facts t
  have htv : t.val = (i 0).val / 128 := rfl
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 4096 ≤ (i 1).val ∧ (i 1).val < win0_2.index t (1 : Fin 2) * 4096 + 4096; omega

/-- THE ARRAY after the run is the specification of the two argument arrays. -/
theorem final (c : Dev nD) : (dats m 0 c).arrAt 2 cfg0.N
    = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m c t) cover

/-- The kernel's run: every weakly fair execution terminates with the result array at the specification of the
    arguments, the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueP.run_blocks m ρ)

end Cert.KernelIdeal.ArrayValue

end
-- ==== Proof.ReferenceRow.lean ====
/-
  The reference's result, entry by entry, as the row specification.

  Every reduction of the reference is a host sum over axis 1 of an `[11008, 4096]` array, kept as a column
  (`broadcast_in_dim` `[11008] → [11008, 1]`) that the row's scalars are computed from, and broadcast back
  (`[11008, 1] → [11008, 4096]`). So the entry at `(r, q)` of every stage depends on row `r` of the arguments only.
  `meanArr_apply` reads one masked mean at `(r, q)` and `stepArr_apply` a whole step; both steps of the program are that
  one term at different arguments (`v29_eq`, `v50_eq`), so the result array is the specification `G` (`result_eq`).
-/
import proofs.«145574_j60430189855367_2_alg».proof.Proof.RefReadP
import proofs.«145574_j60430189855367_2_alg».proof.Proof.ArraySpec

noncomputable section

open scoped BigOperators

namespace Cert.ReferenceIdeal.RowValue

open Cert.ReferenceIdeal Cert.ReferenceIdeal.Gen Cert.ReferenceIdeal.ReadP Idealize.ShloMosaic Idealize.ShloMosaic.ValueIdx
open Cert.MaskedRows

/-! ## The layout operations, read at coordinates -/

/-- A scalar constant broadcast to a column reads the constant. -/
theorem constCol_apply (cst : FVec Ideal S_ .f32) (i : S11008x1.Idx) :
    broadcastInDim S11008x1 ![] bcast_S_S11008x1 cst i = cst ix0 :=
  broadcastInDim_apply _ bcast_S_S11008x1 cst i ix0 (fun a => a.elim0)

/-- A scalar constant broadcast to the whole array reads the constant. -/
theorem constArr_apply (cst : FVec Ideal S_ .f32) (i : S11008x4096.Idx) :
    broadcastInDim S11008x4096 ![] bcast_S_S11008x4096 cst i = cst ix0 :=
  broadcastInDim_apply _ bcast_S_S11008x4096 cst i ix0 (fun a => a.elim0)

/-- The host's sum over axis 1 from a zero initial value, read at row `r`: the sum over the row. -/
theorem rowSum_apply (src : FVec Ideal S11008x4096 .f32) (r : Fin 11008) :
    Host.reduceAdd src (constant (F := Ideal) S_ .f32 0x00000000#32) reducesTo_S11008x4096_S11008_d1 h_S_ (ix1 r)
      = ∑ k : Fin 4096, src (ix2 r k) := by
  simp only [Host.reduceAdd, Ideal.hostReduceAdd_def]
  rw [Ideal.hostReduceAdd_single reducesTo_S11008x4096_S11008_d1 (by decide)]
  have h0 : (constant (F := Ideal) S_ .f32 0x00000000#32) (Shape.Idx.first h_S_) = 0 := Ideal.ofBits_zero_f32
  rw [h0, zero_add]
  refine Finset.sum_congr rfl fun k _ => ?_
  exact congrArg src (funext fun a => Fin.ext (by match a with | ⟨0, _⟩ => rfl | ⟨1, _⟩ => rfl))

/-- That sum kept as a column, read at `(r, 0)`. -/
theorem colSum_apply (src : FVec Ideal S11008x4096 .f32) (r : Fin 11008) :
    broadcastInDim S11008x1 ![0] bcast_S11008_S11008x1_0
      (Host.reduceAdd src (constant (F := Ideal) S_ .f32 0x00000000#32) reducesTo_S11008x4096_S11008_d1 h_S_) (ix2 r (0 : Fin 1))
      = ∑ k : Fin 4096, src (ix2 r k) :=
  (broadcastInDim_apply _ bcast_S11008_S11008x1_0 _ (ix2 r (0 : Fin 1)) (ix1 r) (fun a => match a with
    | ⟨0, _⟩ => by show r.val = if (11008 : Nat) = 1 then 0 else r.val; rw [if_neg (by decide)])).trans (rowSum_apply src r)

/-- A column broadcast along the rows reads, at `(r, q)`, the column at row `r`. -/
theorem colBcast_apply (col : FVec Ideal S11008x1 .f32) (r : Fin 11008) (q : Fin 4096) :
    broadcastInDim S11008x4096 ![0, 1] bcast_S11008x1_S11008x4096_0_1 col (ix2 r q) = col (ix2 r (0 : Fin 1)) :=
  broadcastInDim_apply _ bcast_S11008x1_S11008x4096_0_1 col (ix2 r q) (ix2 r (0 : Fin 1)) (fun a => match a with
    | ⟨0, _⟩ => by show r.val = if (11008 : Nat) = 1 then 0 else r.val; rw [if_neg (by decide)]
    | ⟨1, _⟩ => by show 0 = if (1 : Nat) = 1 then 0 else q.val; rw [if_pos rfl])

/-! ## One masked mean, one step -/

/-- A masked mean as the reference computes it: the row sums of `src` kept as a column, divided by the column `safe`,
    selected against a broadcast zero by the column `has` (the `where`), broadcast along the rows. -/
def meanArr (has : IVec S11008x1 1) (safe : FVec Ideal S11008x1 .f32) (src : FVec Ideal S11008x4096 .f32) :
    FVec Ideal S11008x4096 .f32 :=
  broadcastInDim S11008x4096 ![0, 1] bcast_S11008x1_S11008x4096_0_1
    (select has (Host.divf (broadcastInDim S11008x1 ![0] bcast_S11008_S11008x1_0
        (Host.reduceAdd src (constant (F := Ideal) S_ .f32 0x00000000#32) reducesTo_S11008x4096_S11008_d1 h_S_)) safe)
      (broadcastInDim S11008x1 ![] bcast_S_S11008x1 (id (constant (F := Ideal) S_ .f32 0x00000000#32))))

theorem meanArr_apply (has : IVec S11008x1 1) (safe : FVec Ideal S11008x1 .f32) (src : FVec Ideal S11008x4096 .f32)
    (r : Fin 11008) (q : Fin 4096) :
    meanArr has safe src (ix2 r q)
      = meanWith (has (ix2 r (0 : Fin 1))) (safe (ix2 r (0 : Fin 1))) (fun k => src (ix2 r k)) := by
  unfold meanArr
  refine (colBcast_apply _ r q).trans ?_
  have hz : broadcastInDim S11008x1 ![] bcast_S_S11008x1 (id (constant (F := Ideal) S_ .f32 0x00000000#32)) (ix2 r (0 : Fin 1))
      = zeroW := constCol_apply _ _
  exact congrArg₂ (fun t e => Scalar.select (has (ix2 r (0 : Fin 1))) (Ideal.div t (safe (ix2 r (0 : Fin 1)))) e)
    (colSum_apply src r) hz

/-- The residual `res` centred on its masked mean, inside the mask `mv`. -/
def cenArr (mv : FVec Ideal S11008x4096 .f32) (has : IVec S11008x1 1) (safe : FVec Ideal S11008x1 .f32)
    (res : FVec Ideal S11008x4096 .f32) : FVec Ideal S11008x4096 .f32 :=
  mulf (subf res (meanArr has safe res)) mv

theorem cenArr_apply (mv : FVec Ideal S11008x4096 .f32) (has : IVec S11008x1 1) (safe : FVec Ideal S11008x1 .f32)
    (res : FVec Ideal S11008x4096 .f32) (r : Fin 11008) (q : Fin 4096) :
    cenArr mv has safe res (ix2 r q)
      = (res (ix2 r q) - meanWith (has (ix2 r (0 : Fin 1))) (safe (ix2 r (0 : Fin 1))) (fun k => res (ix2 r k))) * mv (ix2 r q) := by
  show (res (ix2 r q) - meanArr has safe res (ix2 r q)) * mv (ix2 r q) = _
  rw [meanArr_apply]

/-- One step as the reference computes it. -/
def stepArr (mv : FVec Ideal S11008x4096 .f32) (has : IVec S11008x1 1) (safe : FVec Ideal S11008x1 .f32)
    (res s : FVec Ideal S11008x4096 .f32) : FVec Ideal S11008x4096 .f32 :=
  addf s (mulf (addf (mulf (Host.sign (cenArr mv has safe res)) (meanArr has safe (Host.absf (cenArr mv has safe res))))
    (meanArr has safe res)) mv)

theorem stepArr_apply (mv : FVec Ideal S11008x4096 .f32) (has : IVec S11008x1 1) (safe : FVec Ideal S11008x1 .f32)
    (res s : FVec Ideal S11008x4096 .f32) (r : Fin 11008) (q : Fin 4096) :
    stepArr mv has safe res s (ix2 r q)
      = stepWith Ideal.sign (has (ix2 r (0 : Fin 1))) (safe (ix2 r (0 : Fin 1))) (fun k => mv (ix2 r k)) (fun k => res (ix2 r k))
          (fun k => s (ix2 r k)) q := by
  have habs : (fun k => (Host.absf (cenArr mv has safe res)) (ix2 r k))
      = fun k => absE ((res (ix2 r k) - meanWith (has (ix2 r (0 : Fin 1))) (safe (ix2 r (0 : Fin 1))) (fun k => res (ix2 r k))) * mv (ix2 r k)) :=
    funext fun k => by
      show absE (cenArr mv has safe res (ix2 r k)) = _
      rw [cenArr_apply]
  show s (ix2 r q) + (Ideal.sign (cenArr mv has safe res (ix2 r q)) * meanArr has safe (Host.absf (cenArr mv has safe res)) (ix2 r q)
      + meanArr has safe res (ix2 r q)) * mv (ix2 r q) = _
  rw [meanArr_apply, meanArr_apply, cenArr_apply, habs]
  rfl

/-! ## The program's stages -/

section Stages
variable (x0 : (⟨S11008x4096, .f32⟩ : BufTy).Contents (Elt Ideal)) (x1 : (⟨S11008x4096, .i1⟩ : BufTy).Contents (Elt Ideal))

/-- The first step's result is the step term at a zero running approximation. -/
theorem v29_eq : val_main_v29 (F := Ideal) x0 x1
    = stepArr (val_main_v0 (F := Ideal) x1) (val_main_v6 (F := Ideal) x1) (val_main_v4 (F := Ideal) x1)
        (val_main_v10 (F := Ideal) x0 x1) (val_main_v8 (F := Ideal)) := rfl

/-- The result is the step term at the first step's result. -/
theorem v50_eq : val_main_v50 (F := Ideal) x0 x1
    = stepArr (val_main_v0 (F := Ideal) x1) (val_main_v6 (F := Ideal) x1) (val_main_v4 (F := Ideal) x1)
        (val_main_v31 (F := Ideal) x0 x1) (val_main_v29 (F := Ideal) x0 x1) := rfl

theorem count_apply (r : Fin 11008) : val_main_v2 (F := Ideal) x1 (ix2 r (0 : Fin 1)) = MaskedRows.count (mRow x1 r) :=
  colSum_apply (val_main_v0 (F := Ideal) x1) r

theorem hasAny_apply (r : Fin 11008) : val_main_v6 (F := Ideal) x1 (ix2 r (0 : Fin 1)) = hasAny (mRow x1 r) := by
  show Ideal.cmp .ogt (val_main_v2 (F := Ideal) x1 (ix2 r (0 : Fin 1))) (val_main_v5 (F := Ideal) (ix2 r (0 : Fin 1))) = _
  rw [count_apply]
  exact congrArg (fun e => Ideal.cmp .ogt (MaskedRows.count (mRow x1 r)) e) (constCol_apply _ _)

theorem safeCount_apply (r : Fin 11008) : val_main_v4 (F := Ideal) x1 (ix2 r (0 : Fin 1)) = safeCount (mRow x1 r) := by
  show max (val_main_v2 (F := Ideal) x1 (ix2 r (0 : Fin 1))) (val_main_v3 (F := Ideal) (ix2 r (0 : Fin 1))) = _
  rw [count_apply]
  exact congrArg (fun e => max (MaskedRows.count (mRow x1 r)) e) (constCol_apply _ _)

/-- The first step's residual at `(r, k)`: `(x · m - 0) · m`. -/
theorem v10_apply (r : Fin 11008) (k : Fin 4096) :
    val_main_v10 (F := Ideal) x0 x1 (ix2 r k) = (xRow x0 r k * mRow x1 r k - zeroW) * mRow x1 r k := by
  show (x0 (ix2 r k) * maskOfBit (x1 (ix2 r k)) - val_main_v8 (F := Ideal) (ix2 r k)) * maskOfBit (x1 (ix2 r k)) = _
  exact congrArg (fun e => (x0 (ix2 r k) * maskOfBit (x1 (ix2 r k)) - e) * maskOfBit (x1 (ix2 r k))) (constArr_apply _ _)

/-- The first step at `(r, k)`. -/
theorem v29_apply (r : Fin 11008) (k : Fin 4096) :
    val_main_v29 (F := Ideal) x0 x1 (ix2 r k)
      = step Ideal.sign (mRow x1 r) (fun k => (xRow x0 r k * mRow x1 r k - zeroW) * mRow x1 r k) (fun _ => zeroW) k := by
  have h10 : (fun k => val_main_v10 (F := Ideal) x0 x1 (ix2 r k)) = fun k => (xRow x0 r k * mRow x1 r k - zeroW) * mRow x1 r k :=
    funext fun k => v10_apply x0 x1 r k
  have h8 : (fun k => val_main_v8 (F := Ideal) (ix2 r k)) = fun _ => zeroW := funext fun k => constArr_apply _ _
  rw [v29_eq, stepArr_apply, hasAny_apply, safeCount_apply, h10, h8]
  rfl

/-- THE RESULT at `(r, q)` is the specification. -/
theorem result_apply (r : Fin 11008) (q : Fin 4096) :
    val_main_v50 (F := Ideal) x0 x1 (ix2 r q) = G x0 x1 (ix2 r q) := by
  have h29 : (fun k => val_main_v29 (F := Ideal) x0 x1 (ix2 r k))
      = step Ideal.sign (mRow x1 r) (fun k => (xRow x0 r k * mRow x1 r k - zeroW) * mRow x1 r k) (fun _ => zeroW) :=
    funext fun k => v29_apply x0 x1 r k
  have h31 : (fun k => val_main_v31 (F := Ideal) x0 x1 (ix2 r k))
      = fun k => (xRow x0 r k * mRow x1 r k
          - step Ideal.sign (mRow x1 r) (fun k => (xRow x0 r k * mRow x1 r k - zeroW) * mRow x1 r k) (fun _ => zeroW) k) * mRow x1 r k :=
    funext fun k => by
      show (x0 (ix2 r k) * maskOfBit (x1 (ix2 r k)) - val_main_v29 (F := Ideal) x0 x1 (ix2 r k)) * maskOfBit (x1 (ix2 r k)) = _
      rw [v29_apply]; rfl
  rw [v50_eq, stepArr_apply, hasAny_apply, safeCount_apply, h29, h31]
  rfl

/-- The result array IS the specification. -/
theorem result_eq : val_main_v50 (F := Ideal) x0 x1 = G x0 x1 := by
  funext i
  obtain ⟨r, q, rfl⟩ : ∃ (r : Fin 11008) (q : Fin 4096), i = ix2 r q := ⟨i 0, i 1, eq_ix2 i⟩
  exact result_apply x0 x1 r q

end Stages

end Cert.ReferenceIdeal.RowValue

end
-- ==== Proof.lean ====
/-
  The certificate of the masked two-step residual binarisation kernel against its jnp reference.

  Per row of `x : f32[11008, 4096]` with a boolean mask, both programs take two steps of: centre what is left of `x · m` on
  its masked mean, take the masked mean of the absolute deviations, and add `sign · scale + mean` inside the mask. They
  differ in that the reference masks each residual once more (`(x · m - s) · m` against the kernel's `x · m - s`), in how the
  sign is computed (the sign function against two selections on the sign bit's comparison), and in how the mask bit becomes
  a number; on the extended reals the three pairs agree for every input (Proof/RowSpec.lean, Proof/ArraySpec.lean), so the
  precondition is never opened.

  Both runs end with the result array at ONE function `G` of the two argument arrays (Proof/ArraySpec.lean):
  the kernel's by Proof/KernelArray.lean (86 blocks of 128 rows, each the specification's block), the reference's by
  Proof/ReferenceRow.lean over its run read back. The three frames are the generated frame certificates and the reference's
  run with the result dropped; `preserves` is the sign-bit rule's statement at the ledger's two sites.
-/
import proofs.«145574_j60430189855367_2_alg».proof.Defs
import proofs.«145574_j60430189855367_2_alg».proof.Proof.Gen.Kernel
import proofs.«145574_j60430189855367_2_alg».proof.Proof.Gen.Kernel.Skeleton
import proofs.«145574_j60430189855367_2_alg».proof.Proof.Gen.Kernel.Launch
import proofs.«145574_j60430189855367_2_alg».proof.Proof.Gen.Kernel.Points
import proofs.«145574_j60430189855367_2_alg».proof.Proof.Gen.Kernel.Frame
import proofs.«145574_j60430189855367_2_alg».proof.Proof.Gen.KernelIdeal
import proofs.«145574_j60430189855367_2_alg».proof.Proof.Gen.KernelIdeal.Skeleton
import proofs.«145574_j60430189855367_2_alg».proof.Proof.Gen.KernelIdeal.Launch
import proofs.«145574_j60430189855367_2_alg».proof.Proof.Gen.KernelIdeal.Points
import proofs.«145574_j60430189855367_2_alg».proof.Proof.Gen.KernelIdeal.Frame
import proofs.«145574_j60430189855367_2_alg».proof.Proof.Gen.ReferenceIdeal
import proofs.«145574_j60430189855367_2_alg».proof.Proof.Gen.Pre_finite_inputs
import proofs.«145574_j60430189855367_2_alg».proof.Proof.KernelBlocksP
import proofs.«145574_j60430189855367_2_alg».proof.Proof.RefRunP
import proofs.«145574_j60430189855367_2_alg».proof.Proof.RefReadP
import proofs.«145574_j60430189855367_2_alg».proof.Proof.KernelArray
import proofs.«145574_j60430189855367_2_alg».proof.Proof.ReferenceRow
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's two sites, one per step: `1.0` carrying the centred residual's sign bit, printed as a selection on
    `c < 0`; each is the sign-bit rule's statement at the block's shape. -/
theorem preserves : Cert.preserves_Kernel_KernelIdeal :=
  ⟨IdealRules.sign_bit.statement Cert.KernelIdeal.S128x4096 .f32, IdealRules.sign_bit.statement Cert.KernelIdeal.S128x4096 .f32⟩

/-- From memories agreeing on the arguments both runs end with the result at the specification `G` of the arguments:
    the kernel's by its blocks, the reference's by its run's term read as `G`. -/
theorem algebraic : Cert.algebraic_KernelIdeal_ReferenceIdeal := by
  intro m ρ m' ρ' _ hagree
  refine ⟨fun c => Cert.MaskedRows.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, Cert.ReferenceIdeal.RowValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
